-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x1 : Shape := ⟨2, ![4096, 1]⟩
abbrev S1x4096 : Shape := ⟨2, ![1, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S1x4096 : S_.BroadcastsInDim S1x4096 (![] : Fin 0 → Fin S1x4096.rank)
  reducesTo_S1x4096_S_d0_1 : S1x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x1 .f32) (main_arg2 : FVec F S1x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x1 : Shape := ⟨2, ![4096, 1]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S4096x1_S1x4096_1_0 : S4096x1.Transposes [1, 0] S1x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S1x4096_S1x4096_0_0 : ∀ a, (![0, 0] : Fin 2 → Nat) a + S1x4096.size a ≤ S1x4096.size a
  h_S1x4096 : 0 < S1x4096.numel
  broadcasts_S1x4096_S256x4096 : S1x4096.Broadcasts S256x4096
  reduces_S256x4096_S256 : S256x4096.Reduces [1] S256
  shapeCasts_S256_S256x1 : S256.ShapeCasts S256x1
  shapeCasts_S1x4096_S1x4096 : S1x4096.ShapeCasts S1x4096
  broadcasts_S256x1_S256x4096 : S256x1.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x1 : Shape := ⟨2, ![4096, 1]⟩
abbrev S1x4096 : Shape := ⟨2, ![1, 4096]⟩
abbrev S4096 : Shape := ⟨1, ![4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1, .f32⟩
  | .hbm, ⟨2, _⟩ => ⟨S1x4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x1_S1x4096_S4096x4096_1_0_0_1_n_n_wf : DotDims.WF S4096x1 S1x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.RealSums.lean ====
/-
  Sums of real numbers inside the extended reals.

  On the extended reals a factor moves across a finite sum only when nothing is infinite: `(⊤ + ⊥) * c` and
  `⊤ * c + ⊥ * c` are different things. Every law below therefore asks that its terms be real numbers, moves to `ℝ`,
  where `Finset.sum_mul` and `ring` do the work, and comes back through the coercion.
-/
import Mathlib.Data.EReal.Basic
import Mathlib.Algebra.BigOperators.Fin
import Mathlib.Tactic.Ring

namespace Cert.RankOne

/-- An extended real that is a real number (neither `⊤` nor `⊥`). -/
def IsReal (x : EReal) : Prop := ∃ r : ℝ, x = (r : EReal)

/-- The coercion `ℝ → EReal` commutes with finite sums. -/
theorem coe_finset_sum {ι : Type*} (s : Finset ι) (f : ι → ℝ) :
    ((∑ k ∈ s, f k : ℝ) : EReal) = ∑ k ∈ s, (f k : EReal) := by
  classical
  refine Finset.induction_on s ?_ ?_
  · simp
  · intro a s ha ih
    rw [Finset.sum_insert ha, Finset.sum_insert ha, EReal.coe_add, ih]

/-- THE LAW OF THE RANK-ONE WEIGHT. With `W[q, k] = d * c k` (row `q` of an outer product: one entry `d` of the column
    times the row `c`), a row `a` of the input against row `q` of `W` is the row's weighted sum against `c`, times `d`:
    `∑ k, a k * (d * c k) = (∑ k, a k * c k) * d`, for real `a`, `c`, `d`. -/
theorem sum_mul_outer {n : ℕ} (a c : Fin n → EReal) (d : EReal)
    (ha : ∀ k, IsReal (a k)) (hc : ∀ k, IsReal (c k)) (hd : IsReal d) :
    ∑ k, a k * (d * c k) = (∑ k, a k * c k) * d := by
  choose a' ha' using ha
  choose c' hc' using hc
  obtain ⟨d', rfl⟩ := hd
  have e1 : ∀ k, a k * ((d' : EReal) * c k) = ((a' k * (d' * c' k) : ℝ) : EReal) := fun k => by
    rw [ha' k, hc' k, ← EReal.coe_mul, ← EReal.coe_mul]
  have e2 : ∀ k, a k * c k = ((a' k * c' k : ℝ) : EReal) := fun k => by
    rw [ha' k, hc' k, ← EReal.coe_mul]
  rw [Finset.sum_congr rfl (fun k _ => e1 k), Finset.sum_congr rfl (fun k _ => e2 k),
    ← coe_finset_sum, ← coe_finset_sum, ← EReal.coe_mul, Finset.sum_mul]
  exact congrArg _ (Finset.sum_congr rfl fun k _ => by ring)

end Cert.RankOne
-- ==== Proof.FiniteInputs.lean ====
/-
  What the precondition says, entry by entry.

  The precondition is the conjunction, over the four inputs, of "every entry `e` has `|e| < +∞`": a compare of
  `max e (-e)` with the word of `+∞`, reduced by `and` over the whole array. On the extended reals `max e (-e) < ⊤`
  holds exactly when `e` is neither `⊤` nor `⊥`, that is, when `e` is a real number. Here that is read off for the three
  inputs the result's products run over: `x`, the column `u` and the row `v` (the bias is only ever added).
-/
import proofs.«109839_j5471788335890_2_alg».proof.Pre_finite_inputs
import proofs.«109839_j5471788335890_2_alg».proof.Proof.RealSums
import Idealize.ShloMosaic.PureOps.Ideal
import Idealize.ShloMosaic.Lib.ReduceAll
import Idealize.ShloMosaic.Lib.ValueIdx

noncomputable section

namespace Cert.RankOne

open Idealize.ShloMosaic

/-- One entry: the compare `|e| < +∞` answering one says `e` is a real number. -/
theorem isReal_of_abs_lt_inf (e : Ideal .f32)
    (h : FloatOps.cmpf .olt (FloatOps.hostAbsf e) (FloatOps.ofBits (F := Ideal) .f32 0x7F800000#32) = 1#1) : IsReal e := by
  have htop : Ideal.ofBits .f32 0x7F800000#32 = ⊤ := by simp [Ideal.ofBits, Ideal.ieee]
  have h' : Ideal.cmp .olt (max (e : EReal) (-(e : EReal))) (Ideal.ofBits .f32 0x7F800000#32) = 1#1 := h
  rw [htop] at h'
  have hlt : max (e : EReal) (-(e : EReal)) < ⊤ := by
    by_contra hn
    have hz : Ideal.cmp .olt (max (e : EReal) (-(e : EReal))) ⊤ = 0#1 := by
      unfold Ideal.cmp
      simp [hn]
    rw [hz] at h'
    exact absurd h' (by decide)
  rw [max_lt_iff] at hlt
  obtain ⟨h1, h2⟩ := hlt
  induction e using EReal.rec with
  | bot => simp at h2
  | coe r => exact ⟨r, rfl⟩
  | top => simp at h1

variable [Cert.Pre_finite_inputs.Facts]

/-- Under the precondition every entry of `x`, of the column and of the row is a real number. -/
theorem real_of_finite_inputs (x0 : FVec Ideal Cert.Pre_finite_inputs.S8192x4096 .f32)
    (x1 : FVec Ideal Cert.Pre_finite_inputs.S4096x1 .f32) (x2 : FVec Ideal Cert.Pre_finite_inputs.S1x4096 .f32)
    (x3 : FVec Ideal Cert.Pre_finite_inputs.S4096 .f32)
    (h : Cert.Pre_finite_inputs.fn (F := Ideal) x0 x1 x2 x3 = fun _ => 1#1) :
    (∀ i, IsReal (x0 i)) ∧ (∀ i, IsReal (x1 i)) ∧ (∀ i, IsReal (x2 i)) := by
  have h0 := congrFun h ValueIdx.ix0
  dsimp only [Cert.Pre_finite_inputs.fn, Cert.Pre_finite_inputs.fn_part1] at h0
  obtain ⟨h012, -⟩ := IntOp.andi_eq_one.mp h0
  obtain ⟨h01, hr2⟩ := IntOp.andi_eq_one.mp h012
  obtain ⟨hr0, hr1⟩ := IntOp.andi_eq_one.mp h01
  haveI : Subsingleton Cert.Pre_finite_inputs.S_.Idx := ⟨fun a b => funext fun d => d.elim0⟩
  exact ⟨fun i => isReal_of_abs_lt_inf _ (Host.reduce_andi_all _ _ _ _ _ hr0 i),
    fun i => isReal_of_abs_lt_inf _ (Host.reduce_andi_all _ _ _ _ _ hr1 i),
    fun i => isReal_of_abs_lt_inf _ (Host.reduce_andi_all _ _ _ _ _ hr2 i)⟩

end Cert.RankOne

end
-- ==== Proof.OuterSpec.lean ====
/-
  The function both programs compute, in two arrangements.

  Inputs: `x : [8192, 4096]`, a column `u : [4096, 1]`, a row `v : [1, 4096]`, a bias `b : [4096]`.
  The result at `(p, q)` is `(∑ k, x[p, k] * v[0, k]) * u[q, 0] + b[q]`: the weight `W = u v` has rank one, so
  `x Wᵀ` is the vector `x vᵀ` spread against `uᵀ`.

  `rowForm` states it over the column and the bias laid out as ROWS `[1, 4096]` (what a row block of the result is
  computed from); `outer` over the arrays as given. `rowForm_eq_outer` joins them: the column transposed and the bias
  reshaped are read at `(0, q)` where the originals are read at `(q, 0)` and `q`.
-/
import Idealize.ShloMosaic.PureOps.Ideal
import Idealize.ShloMosaic.Lib.ValueIdx
import Idealize.ShloMosaic.Lib.Pipeline.Value

noncomputable section

namespace Cert.RankOne

open Idealize.ShloMosaic Idealize.ShloMosaic.ValueIdx

abbrev SX : Shape := ⟨2, ![8192, 4096]⟩
abbrev SCol : Shape := ⟨2, ![4096, 1]⟩
abbrev SRow : Shape := ⟨2, ![1, 4096]⟩
abbrev SVec : Shape := ⟨1, ![4096]⟩

/-- Row `p` of `x` weighted by the row `v`: `∑ k, x[p, k] * v[0, k]`. -/
def weighted (x : FVec Ideal SX .f32) (v : FVec Ideal SRow .f32) (p : Fin 8192) : EReal :=
  ∑ k : Fin 4096, x (ix2 p k) * v (ix2 0 k)

/-- The result over the column and the bias as rows: `weighted p * ur[0, q] + br[0, q]`. -/
def rowForm (x : FVec Ideal SX .f32) (v ur br : FVec Ideal SRow .f32) : FVec Ideal SX .f32 :=
  fun i => weighted x v (i 0) * ur (ix2 0 (i 1)) + br (ix2 0 (i 1))

/-- The result over the arrays as given: `weighted p * u[q, 0] + b[q]`. -/
def outer (x : FVec Ideal SX .f32) (u : FVec Ideal SCol .f32) (v : FVec Ideal SRow .f32) (b : FVec Ideal SVec .f32) :
    FVec Ideal SX .f32 :=
  fun i => weighted x v (i 0) * u (ix2 (i 1) 0) + b (ix1 (i 1))

/-- The column transposed to a row, at `(0, q)`, is the column at `(q, 0)`. -/
theorem transpose_col_apply (u : FVec Ideal SCol .f32) (h : SCol.Transposes [1, 0] SRow) (q : Fin 4096) :
    transpose SRow [1, 0] u h (ix2 0 q) = u (ix2 q 0) :=
  transpose_apply [1, 0] u h (ix2 0 q) (ix2 q 0) (fun b => match b with
    | ⟨0, _⟩ => rfl
    | ⟨1, _⟩ => rfl)

/-- The bias reshaped to a row, at `(0, q)`, is the bias at `q`. -/
theorem reshape_bias_apply (b : FVec Ideal SVec .f32) (h : SVec.ShapeCasts SRow) (q : Fin 4096) :
    shapeCast SRow b h (ix2 0 q) = b (ix1 q) :=
  shapeCast_apply b h (ix2 0 q) (ix1 q) (by
    rw [Shape.rowMajor_val_one, Shape.rowMajor_val_two]
    show q.val = 0 * 4096 + q.val
    omega)

/-- `rowForm` at `(p, q)`. -/
theorem rowForm_apply (x : FVec Ideal SX .f32) (v ur br : FVec Ideal SRow .f32) (p : Fin 8192) (q : Fin 4096) :
    rowForm x v ur br (ix2 p q) = weighted x v p * ur (ix2 0 q) + br (ix2 0 q) := rfl

/-- `outer` at `(p, q)`. -/
theorem outer_apply (x : FVec Ideal SX .f32) (u : FVec Ideal SCol .f32) (v : FVec Ideal SRow .f32) (b : FVec Ideal SVec .f32)
    (p : Fin 8192) (q : Fin 4096) :
    outer x u v b (ix2 p q) = weighted x v p * u (ix2 q 0) + b (ix1 q) := rfl

/-- The two arrangements are one function. -/
theorem rowForm_eq_outer (x : FVec Ideal SX .f32) (u : FVec Ideal SCol .f32) (v : FVec Ideal SRow .f32) (b : FVec Ideal SVec .f32)
    (ht : SCol.Transposes [1, 0] SRow) (hc : SVec.ShapeCasts SRow) :
    rowForm x v (transpose SRow [1, 0] u ht) (shapeCast SRow b hc) = outer x u v b := by
  funext i
  obtain ⟨p, q, rfl⟩ : ∃ (p : Fin 8192) (q : Fin 4096), i = ix2 p q := ⟨i 0, i 1, eq_ix2 i⟩
  rw [rowForm_apply, outer_apply, transpose_col_apply, reshape_bias_apply]

end Cert.RankOne

end
-- ==== Proof.ReferenceValue.lean ====
/-
  The reference at an index, for real inputs.

  The reference builds the weight `W = u v` (a product contracted over an axis of length one, so `W[q, k] = u[q, 0] * v[0, k]`),
  transposes it, multiplies `x` by it and adds the bias spread down the rows:
  `ref[p, q] = (∑ k, x[p, k] * (u[q, 0] * v[0, k])) + b[q]`.
  Taking the factor `u[q, 0]` out of the sum (`sum_mul_outer`: every term is a real number) gives `outer`.
-/
import proofs.«109839_j5471788335890_2_alg».proof.Proof.Gen.ReferenceIdeal.Read
import proofs.«109839_j5471788335890_2_alg».proof.Proof.RealSums
import proofs.«109839_j5471788335890_2_alg».proof.Proof.OuterSpec

noncomputable section

namespace Cert.RankOne

open Idealize.ShloMosaic Idealize.ShloMosaic.ValueIdx Cert.ReferenceIdeal Cert.ReferenceIdeal.Read

/-- Entry `(k, q)` of the transposed weight is `u[q, 0] * v[0, k]`: the one term of the length-one contraction. -/
theorem weightT_apply (x1 : FVec Ideal SCol .f32) (x2 : FVec Ideal SRow .f32) (p : Fin 8192) (q k : Fin 4096) :
    val_main_v1 (F := Ideal) x1 x2 (ridx_main_v2 (ix2 p q) k) = x1 (ix2 q 0) * x2 (ix2 0 k) := by
  rw [val_main_v1_apply, val_main_v0_apply, Fin.sum_univ_one]
  have el : lidx_main_v0 (idx_main_v1 (ridx_main_v2 (ix2 p q) k)) 0 = ix2 q 0 :=
    funext fun a => by match a with | ⟨0, _⟩ => rfl | ⟨1, _⟩ => rfl
  have er : ridx_main_v0 (idx_main_v1 (ridx_main_v2 (ix2 p q) k)) 0 = ix2 0 k :=
    funext fun a => by match a with | ⟨0, _⟩ => rfl | ⟨1, _⟩ => rfl
  rw [el, er]

/-- The reference's result is `outer` of its arguments when `x`, the column and the row hold real numbers. -/
theorem reference_eq_outer (x0 : FVec Ideal SX .f32) (x1 : FVec Ideal SCol .f32) (x2 : FVec Ideal SRow .f32)
    (x3 : FVec Ideal SVec .f32)
    (h0 : ∀ i, IsReal (x0 i)) (h1 : ∀ i, IsReal (x1 i)) (h2 : ∀ i, IsReal (x2 i)) :
    val_main_v5 (F := Ideal) x0 x1 x2 x3 = outer x0 x1 x2 x3 := by
  funext i
  obtain ⟨p, q, rfl⟩ : ∃ (p : Fin 8192) (q : Fin 4096), i = ix2 p q := ⟨i 0, i 1, eq_ix2 i⟩
  rw [outer_apply, val_main_v5_apply, val_main_v2_apply, val_main_v4_apply, val_main_v3_apply]
  have ex : ∀ k : Fin 4096, lidx_main_v2 (ix2 p q) k = ix2 p k := fun k =>
    funext fun a => by match a with | ⟨0, _⟩ => rfl | ⟨1, _⟩ => rfl
  have eb : idx_main_v3 (idx_main_v4 (ix2 p q)) = ix1 q :=
    funext fun a => by match a with | ⟨0, _⟩ => rfl
  have hsum : (∑ k : Fin 4096, x0 (lidx_main_v2 (ix2 p q) k) * val_main_v1 (F := Ideal) x1 x2 (ridx_main_v2 (ix2 p q) k))
      = ∑ k : Fin 4096, x0 (ix2 p k) * (x1 (ix2 q 0) * x2 (ix2 0 k)) :=
    Finset.sum_congr rfl fun k _ => by rw [weightT_apply, ex k]
  rw [hsum, eb, Ideal.addf_def]
  unfold weighted
  rw [sum_mul_outer (fun k => x0 (ix2 p k)) (fun k => x2 (ix2 0 k)) (x1 (ix2 q 0))
    (fun k => h0 _) (fun k => h2 _) (h1 _)]

end Cert.RankOne

end
-- ==== Proof.BlockValue.lean ====
/-
  One row block of the result, entry by entry.

  A row block holds 256 rows. From its rows of `x` (`P0 : [256, 4096]`), the row `v` (`P1`), the column laid out as a row
  (`P2`) and the bias as a row (`P3`), entry `(r, q)` of the block is
  `(∑ k, P0[r, k] * P1[0, k]) * P2[0, q] + P3[0, q]`:
  the sum along the lanes of `x` times the row spread down the rows, kept as a column and spread across the lanes.
-/
import proofs.«109839_j5471788335890_2_alg».proof.Proof.Gen.KernelIdeal.Value
import Idealize.ShloMosaic.PureOps.Ideal.Laws
import Idealize.ShloMosaic.Lib.ValueIdx
import Idealize.ShloMosaic.Lib.Pipeline.Value

noncomputable section

namespace Cert.RankOne

open Idealize.ShloMosaic Idealize.ShloMosaic.ValueIdx Cert.KernelIdeal Cert.KernelIdeal.Gen Cert.KernelIdeal.Value

/-- The row `P1` spread down 256 rows, at `(r, k)`, is `P1[0, k]`. -/
theorem spreadRow_apply (P1 : FVec Ideal S1x4096 .f32) (r : Fin 256) (k : Fin 4096) :
    broadcastTo S256x4096 P1 broadcasts_S1x4096_S256x4096 (ix2 r k) = P1 (ix2 0 k) :=
  broadcastTo_apply P1 broadcasts_S1x4096_S256x4096 (ix2 r k) (ix2 0 k) (fun a => match a with
    | ⟨0, _⟩ => by show 0 = (if (1 : Nat) = 1 then 0 else r.val); rw [if_pos rfl]
    | ⟨1, _⟩ => by show k.val = (if (4096 : Nat) = 1 then 0 else k.val); rw [if_neg (by decide)])

/-- The lane sum of row `r`: `∑ k, P0[r, k] * P1[0, k]`. -/
theorem laneSum_apply (P0 : FVec Ideal S256x4096 .f32) (P1 : FVec Ideal S1x4096 .f32) (r : Fin 256)
    (hφ : FKind.Formats .f32) (hacc : (0x00000000#32 : BitVec 32) = FKind.add.neutral .f32 hφ) :
    multiReduction (F := Ideal) .add [1] S256 (mulf P0 (broadcastTo S256x4096 P1 broadcasts_S1x4096_S256x4096)) 0x00000000#32
        reduces_S256x4096_S256 hφ hacc (ix1 r)
      = ∑ k : Fin 4096, P0 (ix2 r k) * P1 (ix2 0 k) := by
  refine (Ideal.multiReduction_add_single (mulf P0 (broadcastTo S256x4096 P1 broadcasts_S1x4096_S256x4096)) 0x00000000#32
    reduces_S256x4096_S256 hφ hacc (ix1 r)).trans ?_
  show ∑ k : Fin 4096, mulf P0 (broadcastTo S256x4096 P1 broadcasts_S1x4096_S256x4096)
      (reduces_S256x4096_S256.lift (ix1 r) k) = _
  refine Finset.sum_congr rfl fun k _ => ?_
  have e : reduces_S256x4096_S256.lift (ix1 r) k = ix2 r k :=
    funext fun a => by match a with | ⟨0, _⟩ => rfl | ⟨1, _⟩ => rfl
  rw [e]
  show FloatOps.mulf (P0 (ix2 r k)) (broadcastTo S256x4096 P1 broadcasts_S1x4096_S256x4096 (ix2 r k)) = _
  rw [spreadRow_apply, Ideal.mulf_def]

/-- Entry `(r, q)` of the block the body leaves. -/
theorem block_apply (P0 : FVec Ideal S256x4096 .f32) (P1 P2 P3 : FVec Ideal S1x4096 .f32) (r : Fin 256) (q : Fin 4096) :
    E4 (F := Ideal) P0 P1 P2 P3 (ix2 r q)
      = (∑ k : Fin 4096, P0 (ix2 r k) * P1 (ix2 0 k)) * P2 (ix2 0 q) + P3 (ix2 0 q) := by
  have e0 : ix4_0 (ix2 r q : S256x4096.Idx) = ix1 r := funext fun a => by match a with | ⟨0, _⟩ => rfl
  have e1 : ix4_1 (ix2 r q : S256x4096.Idx) = ix2 0 q := funext fun a => by match a with | ⟨0, _⟩ => rfl | ⟨1, _⟩ => rfl
  have e2 : ix4_2 (ix2 r q : S256x4096.Idx) = ix2 0 q := funext fun a => by match a with | ⟨0, _⟩ => rfl | ⟨1, _⟩ => rfl
  show FloatOps.addf (F := Ideal) (FloatOps.mulf (F := Ideal) ((multiReduction (F := Ideal) .add [1] S256 (mulf P0 (broadcastTo S256x4096 P1 broadcasts_S1x4096_S256x4096))
      0x00000000#32 reduces_S256x4096_S256 (.inl rfl) rfl) (ix4_0 (ix2 r q))) (P2 (ix4_1 (ix2 r q)))) (P3 (ix4_2 (ix2 r q))) = _
  rw [e0, e1, e2]
  exact congrArg (fun z => FloatOps.addf (F := Ideal) (FloatOps.mulf (F := Ideal) z (P2 (ix2 0 q))) (P3 (ix2 0 q)))
    (laneSum_apply P0 P1 r (.inl rfl) rfl)

end Cert.RankOne

end
-- ==== Proof.KernelArray.lean ====
/-
  The kernel's result array as one function of the arguments.

  The grid has 32 points; point `t` works on rows `256 t … 256 t + 255` of `x` and of the result, and on the whole of the
  three rows `v`, `uᵀ`, `bias` (their blocks never move). So row `r` of point `t`'s block is row `256 t + r` of the array
  (`blockRow`), what point `t` writes back is block `t` of `rowForm` of the arrays the region finds (`flushed_eq`), the 32
  blocks cover every row (`covered`), and the array ends holding `rowForm` (`final`). Two of those arrays were written
  by the host just before: the column transposed and the bias reshaped; reading them back turns `rowForm` into `outer` of
  the four arguments (`final_outer`).
-/
import proofs.«109839_j5471788335890_2_alg».proof.Proof.BlockValue
import proofs.«109839_j5471788335890_2_alg».proof.Proof.OuterSpec
import Idealize.ShloMosaic.Lib.StableHlo.Run

noncomputable section

namespace Cert.RankOne

open Idealize.ShloMosaic Idealize.ShloMosaic.ValueIdx Idealize.ShloMosaic.TcCoe Idealize.SL.Sem
open Idealize.ShloMosaic.StableHlo
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Entry `(r, q)` of what the body leaves in the output block, from the four input blocks. -/
theorem out_apply (P0 : FVec Ideal S256x4096 .f32) (P1 P2 P3 : FVec Ideal S1x4096 .f32) (r : Fin 256) (q : Fin 4096) :
    out0_4 (F := Ideal) P0 P1 P2 P3 (ix2 r q)
      = (∑ k : Fin 4096, P0 (ix2 r k) * P1 (ix2 0 k)) * P2 (ix2 0 q) + P3 (ix2 0 q) := by
  unfold out0_4
  simp only [View.ld_unit_zero (S := S256x4096) zero_offsets, View.ld_unit_zero (S := S1x4096) zero_offsets]
  rw [canon4_eq, block_apply]

/-- Where each window's block sits at point `t`: the blocks of `x` and of the result are the `t`-th row blocks, the three
    rows stay at the origin (decided over the 32 points). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 32 := lt_of_lt_of_eq t.isLt N_0

/-- Row `r` of point `t`'s block is row `256 t + r` of the array. -/
def blockRow (t : Fin cfg0.N) (r : Fin 256) : Fin 8192 :=
  ⟨t.val * 256 + r.val, by have := point_lt t; have := r.isLt; omega⟩

theorem emb_x (t : Fin cfg0.N) (r : Fin 256) (k : Fin 4096) :
    ((cfg0.win 0).blk t).view.emb (ix2 r k) = ix2 (blockRow t r) k := by
  obtain ⟨e0, e1, -⟩ := index_facts t
  funext a; apply Fin.ext
  match a with
  | ⟨0, _⟩ => show win0_0.index t (0 : Fin 2) * 256 + 1 * r.val = t.val * 256 + r.val; rw [e0]; omega
  | ⟨1, _⟩ => show win0_0.index t (1 : Fin 2) * 4096 + 1 * k.val = k.val; rw [e1]; omega

theorem emb_v (t : Fin cfg0.N) (k : Fin 4096) :
    ((cfg0.win 1).blk t).view.emb (ix2 0 k) = ix2 0 k := by
  obtain ⟨-, -, e0, e1, -⟩ := index_facts t
  funext a; apply Fin.ext
  match a with
  | ⟨0, _⟩ => show win0_1.index t (0 : Fin 2) * 1 + 1 * (0 : Fin 1).val = (0 : Fin 1).val; rw [e0]; rfl
  | ⟨1, _⟩ => show win0_1.index t (1 : Fin 2) * 4096 + 1 * k.val = k.val; rw [e1]; omega

theorem emb_u (t : Fin cfg0.N) (k : Fin 4096) :
    ((cfg0.win 2).blk t).view.emb (ix2 0 k) = ix2 0 k := by
  obtain ⟨-, -, -, -, e0, e1, -⟩ := index_facts t
  funext a; apply Fin.ext
  match a with
  | ⟨0, _⟩ => show win0_2.index t (0 : Fin 2) * 1 + 1 * (0 : Fin 1).val = (0 : Fin 1).val; rw [e0]; rfl
  | ⟨1, _⟩ => show win0_2.index t (1 : Fin 2) * 4096 + 1 * k.val = k.val; rw [e1]; omega

theorem emb_b (t : Fin cfg0.N) (k : Fin 4096) :
    ((cfg0.win 3).blk t).view.emb (ix2 0 k) = ix2 0 k := by
  obtain ⟨-, -, -, -, -, -, e0, e1, -⟩ := index_facts t
  funext a; apply Fin.ext
  match a with
  | ⟨0, _⟩ => show win0_3.index t (0 : Fin 2) * 1 + 1 * (0 : Fin 1).val = (0 : Fin 1).val; rw [e0]; rfl
  | ⟨1, _⟩ => show win0_3.index t (1 : Fin 2) * 4096 + 1 * k.val = k.val; rw [e1]; omega

theorem emb_out (t : Fin cfg0.N) (r : Fin 256) (q : Fin 4096) :
    ((cfg0.win 4).blk t).view.emb (ix2 r q) = ix2 (blockRow t r) q := by
  obtain ⟨-, -, -, -, -, -, -, -, e0, e1⟩ := index_facts t
  funext a; apply Fin.ext
  match a with
  | ⟨0, _⟩ => show win0_4.index t (0 : Fin 2) * 256 + 1 * r.val = t.val * 256 + r.val; rw [e0]; omega
  | ⟨1, _⟩ => show win0_4.index t (1 : Fin 2) * 4096 + 1 * q.val = q.val; rw [e1]; omega

/-- The four input blocks at point `t`, read off the arrays the region finds. -/
theorem xblock_apply (c : Dev nD) (t : Fin cfg0.N) (r : Fin 256) (k : Fin 4096) :
    iblk m c 0 t (ix2 r k) = V m c main_arg0 (ix2 (blockRow t r) k) := by
  show V m c main_arg0 (((cfg0.win 0).blk t).view.emb (ix2 r k)) = _
  rw [emb_x]

theorem vblock_apply (c : Dev nD) (t : Fin cfg0.N) (k : Fin 4096) :
    iblk m c 1 t (ix2 0 k) = V m c main_arg2 (ix2 0 k) := by
  show V m c main_arg2 (((cfg0.win 1).blk t).view.emb (ix2 0 k)) = _
  rw [emb_v]

theorem ublock_apply (c : Dev nD) (t : Fin cfg0.N) (k : Fin 4096) :
    iblk m c 2 t (ix2 0 k) = V m c main_v0 (ix2 0 k) := by
  show V m c main_v0 (((cfg0.win 2).blk t).view.emb (ix2 0 k)) = _
  rw [emb_u]

theorem bblock_apply (c : Dev nD) (t : Fin cfg0.N) (k : Fin 4096) :
    iblk m c 3 t (ix2 0 k) = V m c main_v1 (ix2 0 k) := by
  show V m c main_v1 (((cfg0.win 3).blk t).view.emb (ix2 0 k)) = _
  rw [emb_b]

/-- WHAT POINT `t` WRITES BACK is block `t` of `rowForm` of the arrays as the region finds them. -/
theorem flushed_eq (c : Dev nD) (t : Fin cfg0.N) :
    (dats m 0 c).flushed 4 t = ((cfg0.win 4).blk t).view.read (Elt Ideal)
      (rowForm (V m c main_arg0) (V m c main_arg2) (V m c main_v0) (V m c main_v1)) := by
  rw [flushed4]
  funext j
  obtain ⟨r, q, rfl⟩ : ∃ (r : Fin 256) (q : Fin 4096), j = ix2 r q := ⟨j 0, j 1, eq_ix2 j⟩
  show out0_4 (iblk m c 0 t) (iblk m c 1 t) (iblk m c 2 t) (iblk m c 3 t) (ix2 r q)
    = rowForm (V m c main_arg0) (V m c main_arg2) (V m c main_v0) (V m c main_v1) (((cfg0.win 4).blk t).view.emb (ix2 r q))
  rw [out_apply (iblk m c 0 t) (iblk m c 1 t) (iblk m c 2 t) (iblk m c 3 t) r q, emb_out, rowForm_apply]
  unfold weighted
  rw [ublock_apply, bblock_apply]
  refine congrArg (fun z => z * V m c main_v0 (ix2 0 q) + V m c main_v1 (ix2 0 q)) (Finset.sum_congr rfl fun k _ => ?_)
  rw [xblock_apply, vblock_apply]

/-- An index of the array is in point `t`'s block iff each coordinate is in the block's range on its axis. -/
theorem mem_blk (t : Fin cfg0.N) (i : S8192x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v2).slice (win0_4.rect t)).set ↔ _
  rw [View.set_slice_whole, Rect.mem_set_unit]
  exact Iff.rfl

/-- Every index of the array is in some point's block: row `p` is in block `p / 256`. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ : ∃ t : Fin cfg0.N, t.val = (i 0).val / 256 :=
    ⟨⟨(i 0).val / 256, by rw [show cfg0.N = 32 from N_0]; omega⟩, rfl⟩
  obtain ⟨-, -, -, -, -, -, -, -, e0, e1⟩ := index_facts t
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    rw [e0, ht]; omega
  | ⟨1, _⟩ =>
    show win0_4.index t (1 : Fin 2) * 4096 ≤ (i 1).val ∧ (i 1).val < win0_4.index t (1 : Fin 2) * 4096 + 4096
    rw [e1]; omega

/-- THE ARRAY after the run is `rowForm` of the arrays the region finds. -/
theorem final (c : Dev nD) : (dats m 0 c).arrAt 4 cfg0.N
    = rowForm (V m c main_arg0) (V m c main_arg2) (V m c main_v0) (V m c main_v1) :=
  (dats m 0 c).arrAt_eq_of_cover 4 _ (fun t _ => flushed_eq m c t) covered

/-- The region finds the column transposed to a row … -/
theorem col_as_row (c : Dev nD) : (V m c main_v0 : S1x4096.Idx → EReal)
    = transpose S1x4096 [1, 0] (m ((c : Thread nD τ).loc main_arg1)) transposes_S4096x1_S1x4096_1_0 := by
  dsimp only [Gen.V, Gen.hostOps0]; after_results

/-- … and the bias reshaped to a row. -/
theorem bias_as_row (c : Dev nD) : (V m c main_v1 : S1x4096.Idx → EReal)
    = shapeCast S1x4096 (m ((c : Thread nD τ).loc main_arg3)) shapeCasts_S4096_S1x4096 := by
  dsimp only [Gen.V, Gen.hostOps0]; after_results; rfl

/-- THE ARRAY after the run is `outer` of the four arguments. -/
theorem final_outer (c : Dev nD) : (dats m 0 c).arrAt 4 cfg0.N
    = outer (m ((c : Thread nD τ).loc main_arg0)) (m ((c : Thread nD τ).loc main_arg1))
        (m ((c : Thread nD τ).loc main_arg2)) (m ((c : Thread nD τ).loc main_arg3)) := by
  rw [final, V_main_arg0, V_main_arg2, col_as_row, bias_as_row, rowForm_eq_outer]

/-- The kernel's run: the result array ends at `outer` of the arguments, the arguments unchanged. -/
theorem kernel_run : θ_run defs (onTc (τ := τ) (main (F := Ideal))) ⟨m, fun _ => 0, ρ⟩ fun r => ∀ c : Dev nD,
      r.2.mem ((c : Thread nD τ).loc main_v2)
        = outer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_outer m c), (h c).2⟩) (run_blocks m ρ)

end Cert.RankOne

end
-- ==== Proof.lean ====
/-
  A linear layer whose weight is an outer product.

  The reference forms the weight `W = u v` from a column `u : [4096, 1]` and a row `v : [1, 4096]` and computes
  `x Wᵀ + bias` for `x : [8192, 4096]`; entry `(p, q)` is `(∑ k, x[p, k] * (u[q, 0] * v[0, k])) + bias[q]`.
  The kernel never forms `W`: a row block of 256 rows at a time, it takes the weighted row sums `∑ k, x[p, k] * v[0, k]`
  and spreads them against the column laid out as a row, `(∑ k, x[p, k] * v[0, k]) * u[q, 0] + bias[q]`.

  The two agree because the factor `u[q, 0]` moves out of the sum. On the extended reals that step needs every term to be
  a real number, which is what the precondition gives for `x`, `u` and `v` (Proof/FiniteInputs.lean); the law itself is
  Proof/RealSums.lean. Proof/OuterSpec.lean states the common function, Proof/ReferenceValue.lean reads the reference's
  operations down to it, Proof/BlockValue.lean reads one row block of the kernel, and Proof/KernelArray.lean puts the 32 row
  blocks together into the whole result array.

  The word-level kernel and its idealization are the same text (no operation was rewritten), so that conjunct is trivial;
  the three programs' runs come from their generated frame and run modules.
-/
import proofs.«109839_j5471788335890_2_alg».proof.Defs
import proofs.«109839_j5471788335890_2_alg».proof.Proof.Gen.Kernel
import proofs.«109839_j5471788335890_2_alg».proof.Proof.Gen.Kernel.Skeleton
import proofs.«109839_j5471788335890_2_alg».proof.Proof.Gen.Kernel.Launch
import proofs.«109839_j5471788335890_2_alg».proof.Proof.Gen.Kernel.Points
import proofs.«109839_j5471788335890_2_alg».proof.Proof.Gen.Kernel.Frame
import proofs.«109839_j5471788335890_2_alg».proof.Proof.Gen.KernelIdeal
import proofs.«109839_j5471788335890_2_alg».proof.Proof.Gen.KernelIdeal.Skeleton
import proofs.«109839_j5471788335890_2_alg».proof.Proof.Gen.KernelIdeal.Launch
import proofs.«109839_j5471788335890_2_alg».proof.Proof.Gen.KernelIdeal.Points
import proofs.«109839_j5471788335890_2_alg».proof.Proof.Gen.KernelIdeal.Frame
import proofs.«109839_j5471788335890_2_alg».proof.Proof.Gen.ReferenceIdeal
import proofs.«109839_j5471788335890_2_alg».proof.Proof.Gen.Pre_finite_inputs
import proofs.«109839_j5471788335890_2_alg».proof.Proof.Gen.KernelIdeal.Value
import proofs.«109839_j5471788335890_2_alg».proof.Proof.Gen.ReferenceIdeal.Run
import proofs.«109839_j5471788335890_2_alg».proof.Proof.Gen.ReferenceIdeal.Read
import proofs.«109839_j5471788335890_2_alg».proof.Proof.FiniteInputs
import proofs.«109839_j5471788335890_2_alg».proof.Proof.ReferenceValue
import proofs.«109839_j5471788335890_2_alg».proof.Proof.KernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `outer` of the arguments: the kernel by its row blocks, the reference by
    taking the column's entry out of the sum, every entry of `x`, `u`, `v` being a real number under the precondition. -/
theorem algebraic : Cert.algebraic_KernelIdeal_ReferenceIdeal := by
  intro m ρ m' ρ' hpre hagree
  refine ⟨_, Cert.RankOne.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.RankOne.real_of_finite_inputs _ _ _ _ (hpre c)
  rw [(hagree c).1, (hagree c).2.1, (hagree c).2.2.1, (hagree c).2.2.2]
  exact (Cert.ReferenceIdeal.Read.val_main_v5_eq (F := Ideal) _ _ _ _).trans
    (Cert.RankOne.reference_eq_outer _ _ _ _ h0 h1 h2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
